-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x32 .f32) (main_arg3 : FVec F S32 .f32) (main_arg4 : FVec F S32x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x32 : Shape := ⟨2, ![1, 32]⟩
abbrev S100000x32 : Shape := ⟨2, ![100000, 32]⟩
abbrev S5000x128 : Shape := ⟨2, ![5000, 128]⟩
abbrev S5000x32 : Shape := ⟨2, ![5000, 32]⟩
abbrev S1600000x32 : Shape := ⟨2, ![1600000, 32]⟩
abbrev S5000x1 : Shape := ⟨2, ![5000, 1]⟩

abbrev nBuf : Space → Nat
  | .hbm => 47
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000x1, .f32⟩
  | .hbm, ⟨12, _⟩ => ⟨S_, .f32⟩
  | .hbm, ⟨13, _⟩ => ⟨S100000x1, .f32⟩
  | .hbm, ⟨14, _⟩ => ⟨S1600000x1, .i32⟩
  | .hbm, ⟨15, _⟩ => ⟨S100000x1, .f32⟩
  | .hbm, ⟨16, _⟩ => ⟨S1x32, .f32⟩
  | .hbm, ⟨17, _⟩ => ⟨S100000x32, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x32, .f32⟩
  | .hbm, ⟨27, _⟩ => ⟨S_, .f32⟩
  | .hbm, ⟨28, _⟩ => ⟨S100000x32, .f32⟩
  | .hbm, ⟨29, _⟩ => ⟨S1600000x1, .i32⟩
  | .hbm, ⟨30, _⟩ => ⟨S100000x32, .f32⟩
  | .hbm, ⟨31, _⟩ => ⟨S1x32, .f32⟩
  | .hbm, ⟨32, _⟩ => ⟨S100000x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S1x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x1, .f32⟩
  | .local _ .vmem, ⟨9, _⟩ => ⟨S5000x1, .f32⟩
  | .local _ .vmem, ⟨10, _⟩ => ⟨S32x32, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x1, .f32⟩
  | .local _ .vmem, ⟨17, _⟩ => ⟨S5000x1, .f32⟩
  | .local _ .vmem, ⟨18, _⟩ => ⟨S5000x32, .f32⟩
  | .local _ .vmem, ⟨19, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S1600000 : S_.BroadcastsInDim S1600000 (![] : Fin 0 → Fin S1600000.rank)
  bcast_S_S100000x32 : S_.BroadcastsInDim S100000x32 (![] : Fin 0 → Fin S100000x32.rank)
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S32x32_S32x32_0_0 : ∀ a, (![0, 0] : Fin 2 → Nat) a + S32x32.size a ≤ S32x32.size a
  h_S32x32 : 0 < S32x32.numel
  scatter_S100000x1_S1600000x1_S1600000x1_1_0_0_1_wf : ScatterDims.WF S100000x1 S1600000x1 S1600000x1 [1] [0] [0] 1
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v31) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S100000x32 : Shape := ⟨2, ![100000, 32]⟩
abbrev S1x32 : Shape := ⟨2, ![1, 32]⟩
abbrev S_ : Shape := ⟨0, ![]⟩
abbrev S1600000x1 : Shape := ⟨2, ![1600000, 1]⟩
abbrev S1600000x32 : Shape := ⟨2, ![1600000, 32]⟩
abbrev S100000x1 : Shape := ⟨2, ![100000, 1]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x32, .f32⟩
  | .hbm, ⟨11, _⟩ => ⟨S1x32, .f32⟩
  | .hbm, ⟨12, _⟩ => ⟨S100000x32, .f32⟩
  | .hbm, ⟨13, _⟩ => ⟨S100000x32, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x32, .f32⟩
  | .hbm, ⟨23, _⟩ => ⟨S_, .f32⟩
  | .hbm, ⟨24, _⟩ => ⟨S100000x32, .f32⟩
  | .hbm, ⟨25, _⟩ => ⟨S1600000x1, .i32⟩
  | .hbm, ⟨26, _⟩ => ⟨S100000x32, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x32, .f32⟩
  | .hbm, ⟨37, _⟩ => ⟨S100000x32, .f32⟩
  | .hbm, ⟨38, _⟩ => ⟨S_, .f32⟩
  | .hbm, ⟨39, _⟩ => ⟨S100000x32, .f32⟩
  | .hbm, ⟨40, _⟩ => ⟨S100000x32, .f32⟩
  | .hbm, ⟨41, _⟩ => ⟨S100000x32, .f32⟩
  | .hbm, ⟨42, _⟩ => ⟨S1x32, .f32⟩
  | .hbm, ⟨43, _⟩ => ⟨S100000x32, .f32⟩
  | .hbm, ⟨44, _⟩ => ⟨S100000x32, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S_, .f32⟩
  | .hbm, ⟨55, _⟩ => ⟨S100000x32, .f32⟩
  | .hbm, ⟨56, _⟩ => ⟨S1600000x1, .i32⟩
  | .hbm, ⟨57, _⟩ => ⟨S100000x32, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x32, .f32⟩
  | .hbm, ⟨68, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000x1_S1600000x1_S1600000x1_1_0_0_1_wf : ScatterDims.WF S100000x1 S1600000x1 S1600000x1 [1] [0] [0] 1
  dot_S100000x32_S32x32_S100000x32_1_0_0_1_n_n_wf : DotDims.WF S100000x32 S32x32 S100000x32 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KernelRun.lean ====
/-
  The program's run with its result named.

  The program is three stretches of host operations, each followed by one stage on the vector unit. Run from a launch
  memory with all counters at zero, every weakly fair execution terminates, and the final memory holds, at every buffer
  that is not scoped to a stage, the contents the last boundary names: the fold of the host stretches and of the
  stages' write-backs over the launch memory. Read at the result buffer this names the program's result; read at the
  argument buffers it gives back the launch contents.
-/
import proofs.«123568_j71193377899389_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the argument
    arrays as launched. -/
theorem run_named : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v32 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibPlainHostProduct.lean ====
/-
  A plain host matrix product read at an index, over the extended reals.

  The host's `dot_general` of an `R × n` matrix by an `n × k` matrix (the left operand contracted on its second axis,
  the right one on its first, no batch axis) is, at row `q` and column `o`, the sum over `c : Fin n` of
  `A (q, c) * B (c, o)`, whatever the schedule key: there is no accumulator, and the contraction index, a one-axis
  multi-index, is re-indexed by its one coordinate. It is the host counterpart of the kernel-side product into the
  zero matrix, over the same dimension numbers `plainDims`, so the two meet in one sum.
-/
import Idealize.ShloMosaic.PureOps.Ideal
import Idealize.ShloMosaic.PureOps.Ideal.Laws
import Idealize.ShloMosaic.Lib.ValueIdx
import proofs.«123568_j71193377899389_2_alg».proof.Proof.LibPlainMatmul

noncomputable section

namespace Cert.PointConv

open Idealize.ShloMosaic Idealize.ShloMosaic.ValueIdx

/-- A host product of an `R × n` by an `n × k` matrix, at `(q, o)`: the sum over the shared axis. -/
theorem plainDotGeneral_apply {R n k : Nat} {φ₁ φ₂ : FTy} (wf) (prec : Option ContractPrecision) (sched : HostSchedule)
    (A : FVec Ideal (⟨2, ![R, n]⟩ : Shape) φ₁) (B : FVec Ideal (⟨2, ![n, k]⟩ : Shape) φ₂) (q : Fin R) (o : Fin k) :
    FloatOps.dotGeneral (plainDims R n k wf) prec sched A B (ix2 q o) = ∑ c : Fin n, A (ix2 q c) * B (ix2 c o) := by
  rw [Ideal.dotGeneral_apply, ← Equiv.sum_comp (plainContr wf).symm]
  refine Finset.sum_congr rfl fun c _ => ?_
  rw [plainDims_lhsIdx, plainDims_rhsIdx]

end Cert.PointConv

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.LibDenseLayer.lean ====
/-
  Dense layers read entry by entry, over the extended reals.

  A layer `act (X · W + bias)` is computed two ways. On the vector unit a block of `R` rows `x` is multiplied by the
  weight matrix into the zero matrix, and a bias row `[1, k]` is copied down the `R` rows and added. On the host the
  whole matrix `X : [N, n]` is multiplied by `W : [n, k]` and the bias row is broadcast along the rows. Read at row
  `q`, column `o`, both are the same number: `(∑ c, X (q, c) * W (c, o)) + bias (0, o)`. The lemmas below state
  each form at an index, generic in the sizes, together with the forms of the two activations used after such a layer
  (the maximum with zero, and `x` where `x > 0` else `x` scaled), a bias row that is all zeros (adding it changes
  nothing: `a + 0 = a` holds for every extended real), and the elementwise `A + bias` layer.
-/
import Idealize.ShloMosaic.PureOps.Ideal
import Idealize.ShloMosaic.PureOps.Ideal.Laws
import Idealize.ShloMosaic.Lib.ValueIdx
import Idealize.ShloMosaic.Lib.Pipeline.Value
import proofs.«123568_j71193377899389_2_alg».proof.Proof.LibPlainMatmul
import proofs.«123568_j71193377899389_2_alg».proof.Proof.LibPlainHostProduct
import proofs.«123568_j71193377899389_2_alg».proof.Proof.LibRowLayout

noncomputable section

namespace Cert.DenseLayer

open Idealize.ShloMosaic Idealize.ShloMosaic.ValueIdx Cert.PointConv Idealize.ShloMosaic.RowLayout

variable {R N n k : Nat}

/-- A bias row `[1, k]` broadcast along the rows of `[N, k]` by the host (dimensions `[0, 1]`) reads, at `(i, o)`,
    the row's entry `(0, o)`. -/
theorem hostRow_apply {α : Type} (B2 : (⟨2, ![1, k]⟩ : Shape).Idx → α)
    (h : (⟨2, ![1, k]⟩ : Shape).BroadcastsInDim ⟨2, ![N, k]⟩ ![0, 1]) (i : Fin N) (o : Fin k) :
    broadcastInDim ⟨2, ![N, k]⟩ ![0, 1] h B2 (ix2 i o) = B2 (ix2 (0 : Fin 1) o) := by
  refine broadcastInDim_apply ![0, 1] h B2 (ix2 i o) (ix2 (0 : Fin 1) o) fun a => ?_
  match a with
  | ⟨0, _⟩ => show (0 : Nat) = if (1 : Nat) = 1 then 0 else i.val; rw [if_pos rfl]
  | ⟨1, _⟩ =>
    show o.val = if k = 1 then 0 else o.val
    split
    · have := o.isLt; omega
    · rfl

/-- A block of `R` rows times the weights, accumulated from zero, plus the bias row copied down the block:
    entry `(q, o)` is `(∑ c, x (q, c) * w (c, o)) + bias (0, o)`. -/
theorem blockAffine_apply (wf) (prec : Option ContractPrecision) (x : FVec Ideal (⟨2, ![R, n]⟩ : Shape) .f32)
    (w : FVec Ideal (⟨2, ![n, k]⟩ : Shape) .f32) (b2 : FVec Ideal (⟨2, ![1, k]⟩ : Shape) .f32)
    (hb : (⟨2, ![1, k]⟩ : Shape).Broadcasts ⟨2, ![R, k]⟩) (q : Fin R) (o : Fin k) :
    addf (matmul (plainDims R n k wf) prec x w (constant (F := Ideal) (⟨2, ![R, k]⟩ : Shape) .f32 0x00000000#32))
        (broadcastTo ⟨2, ![R, k]⟩ b2 hb) (ix2 q o)
      = (∑ c : Fin n, x (ix2 q c) * w (ix2 c o)) + b2 (ix2 (0 : Fin 1) o) := by
  show FloatOps.matmul (plainDims R n k wf) prec x w _ (ix2 q o) + broadcastTo ⟨2, ![R, k]⟩ b2 hb (ix2 q o) = _
  rw [plainMatmul_zero_apply, rowBroadcast_apply]

/-- The host's product of the whole matrix plus the bias row broadcast along the rows: entry `(i, o)` is
    `(∑ c, X (i, c) * W (c, o)) + bias (0, o)`. -/
theorem hostAffine_apply (wf) (prec : Option ContractPrecision) (X : FVec Ideal (⟨2, ![N, n]⟩ : Shape) .f32)
    (W : FVec Ideal (⟨2, ![n, k]⟩ : Shape) .f32) (B2 : FVec Ideal (⟨2, ![1, k]⟩ : Shape) .f32)
    (h : (⟨2, ![1, k]⟩ : Shape).BroadcastsInDim ⟨2, ![N, k]⟩ ![0, 1]) (i : Fin N) (o : Fin k) :
    addf (Host.dotGeneral (plainDims N n k wf) prec X W) (broadcastInDim ⟨2, ![N, k]⟩ ![0, 1] h B2) (ix2 i o)
      = (∑ c : Fin n, X (ix2 i c) * W (ix2 c o)) + B2 (ix2 (0 : Fin 1) o) := by
  show FloatOps.dotGeneral (plainDims N n k wf) prec .single X W (ix2 i o)
      + broadcastInDim ⟨2, ![N, k]⟩ ![0, 1] h B2 (ix2 i o) = _
  rw [plainDotGeneral_apply, hostRow_apply]

/-- The host's product alone, at an entry. -/
theorem hostProduct_apply (wf) (prec : Option ContractPrecision) (X : FVec Ideal (⟨2, ![N, n]⟩ : Shape) .f32)
    (W : FVec Ideal (⟨2, ![n, k]⟩ : Shape) .f32) (i : Fin N) (o : Fin k) :
    Host.dotGeneral (plainDims N n k wf) prec X W (ix2 i o) = ∑ c : Fin n, X (ix2 i c) * W (ix2 c o) :=
  plainDotGeneral_apply wf prec .single X W i o

/-- The word of zero is the extended real zero, and adding it changes nothing. -/
theorem add_zero_word (a : EReal) : a + Ideal.ofBits .f32 0x00000000#32 = a := by
  rw [Ideal.ofBits_zero_f32, add_zero]

end Cert.DenseLayer

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.MeanLayers.lean ====
/-
  The three dense stages of a two-layer mean-aggregation network, as whole arrays and entry by entry, over the
  extended reals.

  Each layer of the network maps node features through a linear map with a bias, sends every node's row along the
  edges, adds up what arrives at each node and divides by the number of arrivals, that number floored at one. The
  sending and adding are the same host operations on both sides and are never opened here. The dense stages are:
  `affine` (X · W + bias row), `floorMean` (A / max (cnt, 1), the count a column copied along the row) and
  `positivePart` (max (A, 0)). Each is stated as the host computes it on the whole array, and read at an entry
  (i, o). Beside them stand the forms a block of R rows takes on the vector unit, read at an entry (q, o) of the
  block: the same numbers of the block's rows. Nothing here needs an entry to be finite.
-/
import Idealize.ShloMosaic.PureOps.Ideal
import Idealize.ShloMosaic.PureOps.Ideal.Laws
import Idealize.ShloMosaic.Lib.ValueIdx
import Idealize.ShloMosaic.Lib.Pipeline.Value
import proofs.«123568_j71193377899389_2_alg».proof.Proof.LibDenseLayer
import proofs.«123568_j71193377899389_2_alg».proof.Proof.LibColumnForms
import proofs.«123568_j71193377899389_2_alg».proof.Proof.LibHostRowForms

noncomputable section

namespace Cert.MeanLayers

open Idealize.ShloMosaic Idealize.ShloMosaic.ValueIdx Cert.PointConv Cert.DenseLayer Cert.ColumnForms Cert.HostRowForms

variable {R N n k : Nat}

/-- The f32 word of one. -/
abbrev oneWord : BitVec 32 := 0x3F800000#32

/-! ## The host's whole-array forms -/

/-- X · W plus the bias row copied along the rows. -/
def affine (wf : DotDims.WF (⟨2, ![N, n]⟩ : Shape) ⟨2, ![n, k]⟩ ⟨2, ![N, k]⟩ [1] [0] [0] [1] [] [])
    (hb : (⟨2, ![1, k]⟩ : Shape).BroadcastsInDim ⟨2, ![N, k]⟩ ![0, 1])
    (X : FVec Ideal (⟨2, ![N, n]⟩ : Shape) .f32) (W : FVec Ideal (⟨2, ![n, k]⟩ : Shape) .f32)
    (B2 : FVec Ideal (⟨2, ![1, k]⟩ : Shape) .f32) : FVec Ideal (⟨2, ![N, k]⟩ : Shape) .f32 :=
  addf (Host.dotGeneral (plainDims N n k wf) none X W) (broadcastInDim ⟨2, ![N, k]⟩ ![0, 1] hb B2)

/-- A divided by the count column floored at one and copied along the rows. -/
def floorMean (h1 : (⟨0, ![]⟩ : Shape).BroadcastsInDim ⟨2, ![N, 1]⟩ ![])
    (h2 : (⟨2, ![N, 1]⟩ : Shape).BroadcastsInDim ⟨2, ![N, k]⟩ ![0, 1])
    (A : FVec Ideal (⟨2, ![N, k]⟩ : Shape) .f32) (cnt : FVec Ideal (⟨2, ![N, 1]⟩ : Shape) .f32) :
    FVec Ideal (⟨2, ![N, k]⟩ : Shape) .f32 :=
  Host.divf (F := Ideal) A (broadcastInDim ⟨2, ![N, k]⟩ ![0, 1] h2
    (maximumf cnt (broadcastInDim ⟨2, ![N, 1]⟩ ![] h1 (constant (F := Ideal) ⟨0, ![]⟩ .f32 oneWord))))

/-- The maximum of A and zero, entry by entry. -/
def positivePart (h0 : (⟨0, ![]⟩ : Shape).BroadcastsInDim ⟨2, ![N, k]⟩ ![])
    (A : FVec Ideal (⟨2, ![N, k]⟩ : Shape) .f32) : FVec Ideal (⟨2, ![N, k]⟩ : Shape) .f32 :=
  maximumf A (broadcastInDim ⟨2, ![N, k]⟩ ![] h0 (constant (F := Ideal) ⟨0, ![]⟩ .f32 0x00000000#32))

/-! ## The same, entry by entry -/

/-- The mean of one entry: a over the count floored at one. -/
def meanEntry (a cnt : EReal) : EReal := Ideal.div a (max cnt (Ideal.ofBits .f32 oneWord))

/-- The positive part of one entry. -/
def posEntry (a : EReal) : EReal := max a (Ideal.ofBits .f32 0x00000000#32)

theorem affine_apply (wf : DotDims.WF (⟨2, ![N, n]⟩ : Shape) ⟨2, ![n, k]⟩ ⟨2, ![N, k]⟩ [1] [0] [0] [1] [] [])
    (hb : (⟨2, ![1, k]⟩ : Shape).BroadcastsInDim ⟨2, ![N, k]⟩ ![0, 1])
    (X : FVec Ideal (⟨2, ![N, n]⟩ : Shape) .f32) (W : FVec Ideal (⟨2, ![n, k]⟩ : Shape) .f32)
    (B2 : FVec Ideal (⟨2, ![1, k]⟩ : Shape) .f32) (i : Fin N) (o : Fin k) :
    affine wf hb X W B2 (ix2 i o) = (∑ c : Fin n, X (ix2 i c) * W (ix2 c o)) + B2 (ix2 (0 : Fin 1) o) :=
  hostAffine_apply wf none X W B2 hb i o

theorem floorMean_apply (h1 : (⟨0, ![]⟩ : Shape).BroadcastsInDim ⟨2, ![N, 1]⟩ ![])
    (h2 : (⟨2, ![N, 1]⟩ : Shape).BroadcastsInDim ⟨2, ![N, k]⟩ ![0, 1])
    (A : FVec Ideal (⟨2, ![N, k]⟩ : Shape) .f32) (cnt : FVec Ideal (⟨2, ![N, 1]⟩ : Shape) .f32) (i : Fin N) (o : Fin k) :
    floorMean h1 h2 A cnt (ix2 i o) = meanEntry (A (ix2 i o)) (cnt (ix2 i (0 : Fin 1))) := by
  show Ideal.div (A (ix2 i o)) (broadcastInDim ⟨2, ![N, k]⟩ ![0, 1] h2
    (maximumf cnt (broadcastInDim ⟨2, ![N, 1]⟩ ![] h1 (constant (F := Ideal) ⟨0, ![]⟩ .f32 oneWord))) (ix2 i o)) = _
  rw [bcast_a1_ab_apply _ ![0, 1] rfl h2 i o]
  rfl

theorem positivePart_apply (h0 : (⟨0, ![]⟩ : Shape).BroadcastsInDim ⟨2, ![N, k]⟩ ![])
    (A : FVec Ideal (⟨2, ![N, k]⟩ : Shape) .f32) (j : (⟨2, ![N, k]⟩ : Shape).Idx) :
    positivePart h0 A j = posEntry (A j) := rfl

/-! ## A block of R rows on the vector unit -/

/-- The block's rows divided by the block's counts floored at one, the count column copied along the row. -/
theorem blockMean_apply (x : FVec Ideal (⟨2, ![R, k]⟩ : Shape) .f32) (cnt : FVec Ideal (⟨2, ![R, 1]⟩ : Shape) .f32)
    (hb : (⟨2, ![R, 1]⟩ : Shape).Broadcasts ⟨2, ![R, k]⟩) (q : Fin R) (o : Fin k) :
    divf x (broadcastTo ⟨2, ![R, k]⟩ (maximumf cnt (broadcast ⟨2, ![R, 1]⟩ (Scalar.ofBits (F := Ideal) .f32 oneWord))) hb) (ix2 q o)
      = meanEntry (x (ix2 q o)) (cnt (ix2 q (0 : Fin 1))) := by
  show Ideal.div (x (ix2 q o)) (broadcastTo ⟨2, ![R, k]⟩ (maximumf cnt (broadcast ⟨2, ![R, 1]⟩ (Scalar.ofBits (F := Ideal) .f32 oneWord))) hb (ix2 q o)) = _
  rw [broadcastTo_a1_ab_apply _ hb q o]
  rfl

/-- A block of R rows times the weights into the zero block plus the bias row copied down the block, the operands in
    any float formats (a change of format is the identity here): entry (q, o) is the row's contraction plus the bias. -/
theorem blockLinear_apply {φ₁ φ₂ : FTy} (wf : DotDims.WF (⟨2, ![R, n]⟩ : Shape) ⟨2, ![n, k]⟩ ⟨2, ![R, k]⟩ [1] [0] [0] [1] [] [])
    (x : FVec Ideal (⟨2, ![R, n]⟩ : Shape) φ₁) (w : FVec Ideal (⟨2, ![n, k]⟩ : Shape) φ₂)
    (b2 : FVec Ideal (⟨2, ![1, k]⟩ : Shape) .f32) (hb : (⟨2, ![1, k]⟩ : Shape).Broadcasts ⟨2, ![R, k]⟩) (q : Fin R) (o : Fin k) :
    addf (matmul (plainDims R n k wf) none x w (constant (F := Ideal) (⟨2, ![R, k]⟩ : Shape) .f32 0x00000000#32))
        (broadcastTo ⟨2, ![R, k]⟩ b2 hb) (ix2 q o)
      = (∑ c : Fin n, x (ix2 q c) * w (ix2 c o)) + b2 (ix2 (0 : Fin 1) o) := by
  show FloatOps.matmul (plainDims R n k wf) none x w _ (ix2 q o) + broadcastTo ⟨2, ![R, k]⟩ b2 hb (ix2 q o) = _
  rw [plainMatmul_zero_apply, Idealize.ShloMosaic.RowLayout.rowBroadcast_apply]

/-! ## The network's sizes: 100000 nodes, 128 input features, 32 hidden and 32 output features -/

namespace Net

theorem one_col : (⟨0, ![]⟩ : Shape).BroadcastsInDim ⟨2, ![100000, 1]⟩ ![] := by decide
theorem col_rows : (⟨2, ![100000, 1]⟩ : Shape).BroadcastsInDim ⟨2, ![100000, 32]⟩ ![0, 1] := by decide
theorem zero_all : (⟨0, ![]⟩ : Shape).BroadcastsInDim ⟨2, ![100000, 32]⟩ ![] := by decide
theorem row_rows : (⟨2, ![1, 32]⟩ : Shape).BroadcastsInDim ⟨2, ![100000, 32]⟩ ![0, 1] := by decide
theorem wf1 : DotDims.WF (⟨2, ![100000, 128]⟩ : Shape) ⟨2, ![128, 32]⟩ ⟨2, ![100000, 32]⟩ [1] [0] [0] [1] [] [] := by decide
theorem wf2 : DotDims.WF (⟨2, ![100000, 32]⟩ : Shape) ⟨2, ![32, 32]⟩ ⟨2, ![100000, 32]⟩ [1] [0] [0] [1] [] [] := by decide

/-- The first layer's linear stage: X · W1 + b1 along the rows. -/
def linear1 (X : FVec Ideal (⟨2, ![100000, 128]⟩ : Shape) .f32) (W : FVec Ideal (⟨2, ![128, 32]⟩ : Shape) .f32)
    (B2 : FVec Ideal (⟨2, ![1, 32]⟩ : Shape) .f32) : FVec Ideal (⟨2, ![100000, 32]⟩ : Shape) .f32 :=
  affine wf1 row_rows X W B2

/-- A node's summed messages over its floored message count. -/
def nodeMean (A : FVec Ideal (⟨2, ![100000, 32]⟩ : Shape) .f32) (cnt : FVec Ideal (⟨2, ![100000, 1]⟩ : Shape) .f32) :
    FVec Ideal (⟨2, ![100000, 32]⟩ : Shape) .f32 :=
  floorMean one_col col_rows A cnt

/-- The second layer's dense stage: the first layer's mean, its positive part, then H · W2 + b2 along the rows. -/
def linear2 (A : FVec Ideal (⟨2, ![100000, 32]⟩ : Shape) .f32) (cnt : FVec Ideal (⟨2, ![100000, 1]⟩ : Shape) .f32)
    (W : FVec Ideal (⟨2, ![32, 32]⟩ : Shape) .f32) (B2 : FVec Ideal (⟨2, ![1, 32]⟩ : Shape) .f32) :
    FVec Ideal (⟨2, ![100000, 32]⟩ : Shape) .f32 :=
  affine wf2 row_rows (positivePart zero_all (nodeMean A cnt)) W B2

theorem linear1_apply (X : FVec Ideal (⟨2, ![100000, 128]⟩ : Shape) .f32) (W : FVec Ideal (⟨2, ![128, 32]⟩ : Shape) .f32)
    (B2 : FVec Ideal (⟨2, ![1, 32]⟩ : Shape) .f32) (i : Fin 100000) (o : Fin 32) :
    linear1 X W B2 (ix2 i o) = (∑ c : Fin 128, X (ix2 i c) * W (ix2 c o)) + B2 (ix2 (0 : Fin 1) o) :=
  affine_apply wf1 row_rows X W B2 i o

theorem nodeMean_apply (A : FVec Ideal (⟨2, ![100000, 32]⟩ : Shape) .f32) (cnt : FVec Ideal (⟨2, ![100000, 1]⟩ : Shape) .f32)
    (i : Fin 100000) (o : Fin 32) : nodeMean A cnt (ix2 i o) = meanEntry (A (ix2 i o)) (cnt (ix2 i (0 : Fin 1))) :=
  floorMean_apply one_col col_rows A cnt i o

theorem linear2_apply (A : FVec Ideal (⟨2, ![100000, 32]⟩ : Shape) .f32) (cnt : FVec Ideal (⟨2, ![100000, 1]⟩ : Shape) .f32)
    (W : FVec Ideal (⟨2, ![32, 32]⟩ : Shape) .f32) (B2 : FVec Ideal (⟨2, ![1, 32]⟩ : Shape) .f32) (i : Fin 100000) (o : Fin 32) :
    linear2 A cnt W B2 (ix2 i o)
      = (∑ c : Fin 32, posEntry (meanEntry (A (ix2 i c)) (cnt (ix2 i (0 : Fin 1)))) * W (ix2 c o)) + B2 (ix2 (0 : Fin 1) o) := by
  unfold linear2
  rw [affine_apply]
  refine congrArg (· + B2 (ix2 (0 : Fin 1) o)) (Finset.sum_congr rfl fun c _ => ?_)
  rw [positivePart_apply, nodeMean_apply]

end Net

end Cert.MeanLayers

end
-- ==== Proof.FirstLinear.lean ====
/-
  The first layer's linear stage on the vector unit: X · W1 plus the bias row.

  The stage visits the 100000 nodes in 20 blocks of 5000 rows. At block t it reads rows 5000·t … 5000·t + 4999 of the
  features, the whole weight matrix and the whole bias row, and writes the same rows of the result: entry (q, o) of the
  block is the contraction of row 5000·t + q with column o of the weights, plus the bias entry o. The narrowing of the
  operands before the product is the identity on extended reals. Every row lies in exactly one block, so after the
  last block the result array is the whole-array linear stage of the arrays the stage was entered with.
-/
import proofs.«123568_j71193377899389_2_alg».proof.Proof.Gen.KernelIdeal.Frame
import proofs.«123568_j71193377899389_2_alg».proof.Proof.MeanLayers
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.FirstLinear

open Cert.KernelIdeal Cert.KernelIdeal.Gen Cert.MeanLayers Cert.MeanLayers.Net

variable (V : (c : Dev nD) → (b : Ref sig .tc) → Buf (Elt Ideal) ((c : Thread nD τ).loc b))

theorem hz : (![0, 0] : Fin 2 → Nat) = fun _ => 0 := funext fun a => by fin_cases a <;> rfl

/-- The stored value at entry (q, o) of a block: the row's contraction with the weights plus the bias entry. -/
theorem pay_apply (x0 : FVec Ideal S5000x128 .f32) (x1 : FVec Ideal S128x32 .f32) (x2 : FVec Ideal S1x32 .f32)
    (q : Fin 5000) (o : Fin 32) :
    k0_pay1 (F := Ideal) x0 x1 x2 (ix2 q o) = (∑ c : Fin 128, x0 (ix2 q c) * x1 (ix2 c o)) + x2 (ix2 (0 : Fin 1) o) := by
  unfold k0_pay1
  rw [shapeCast_self]
  exact blockLinear_apply dot_S5000x128_S128x32_S5000x32_1_0_0_1_n_n.wf (truncf .bf16 x0 bitsLt_bf16_f32)
    (truncf .bf16 x1 bitsLt_bf16_f32) x2 broadcasts_S1x32_S5000x32 q o

/-- Block t of the features and of the result starts at row 5000·t; the weights and the bias row are read whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What block t writes back is block t of the whole-array linear stage of the arrays the stage was entered with. -/
theorem flushed_eq (c : Dev nD) (t : Fin cfg0.N) :
    (dat0 V c).flushed 3 t
      = ((cfg0.win 3).blk t).view.read (Elt Ideal) (linear1 (V c main_arg0) (V c main_arg2) (V c main_v8)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x32) hz, View.ld_unit_zero (S := S1x32) hz]
  obtain ⟨e0, e1, e2, e3, e4, e5, e6, e7⟩ := idx_facts t
  have hN : t.val < 20 := by have := t.isLt; have h20 : cfg0.N = 20 := N_0; omega
  funext j
  obtain ⟨q, o, rfl⟩ : ∃ (q : Fin 5000) (o : Fin 32), j = ix2 q o := ⟨j 0, j 1, eq_ix2 j⟩
  have hrow : 5000 * t.val + q.val < 100000 := by have := q.isLt; omega
  show k0_pay1 (F := Ideal) (iblk0 V c 0 t) (iblk0 V c 1 t) (iblk0 V c 2 t) (ix2 q o)
    = linear1 (V c main_arg0) (V c main_arg2) (V c main_v8) (((cfg0.win 3).blk t).view.emb (ix2 q o))
  have hemb : ((cfg0.win 3).blk t).view.emb (ix2 q o) = ix2 (⟨5000 * t.val + q.val, hrow⟩ : Fin 100000) o := by
    funext a; apply Fin.ext
    match a with
    | ⟨0, _⟩ => show win0_3.index t (0 : Fin 2) * 5000 + 1 * q.val = 5000 * t.val + q.val; omega
    | ⟨1, _⟩ => show win0_3.index t (1 : Fin 2) * 32 + 1 * o.val = o.val; omega
  have h0 : ∀ c' : Fin 128, iblk0 V c 0 t (ix2 q c') = V c main_arg0 (ix2 (⟨5000 * t.val + q.val, hrow⟩ : Fin 100000) c') := by
    intro c'
    show V c main_arg0 (((cfg0.win 0).blk t).view.emb (ix2 q c')) = _
    refine congrArg (V c main_arg0) (funext fun a => Fin.ext ?_)
    match a with
    | ⟨0, _⟩ => show win0_0.index t (0 : Fin 2) * 5000 + 1 * q.val = 5000 * t.val + q.val; omega
    | ⟨1, _⟩ => show win0_0.index t (1 : Fin 2) * 128 + 1 * c'.val = c'.val; omega
  have h1 : ∀ c' : Fin 128, iblk0 V c 1 t (ix2 c' o) = V c main_arg2 (ix2 c' o) := by
    intro c'
    show V c main_arg2 (((cfg0.win 1).blk t).view.emb (ix2 c' o)) = _
    refine congrArg (V c main_arg2) (funext fun a => Fin.ext ?_)
    match a with
    | ⟨0, _⟩ => show win0_1.index t (0 : Fin 2) * 128 + 1 * c'.val = c'.val; omega
    | ⟨1, _⟩ => show win0_1.index t (1 : Fin 2) * 32 + 1 * o.val = o.val; omega
  have h2 : iblk0 V c 2 t (ix2 (0 : Fin 1) o) = V c main_v8 (ix2 (0 : Fin 1) o) := by
    show V c main_v8 (((cfg0.win 2).blk t).view.emb (ix2 (0 : Fin 1) o)) = _
    refine congrArg (V c main_v8) (funext fun a => Fin.ext ?_)
    match a with
    | ⟨0, _⟩ => show win0_2.index t (0 : Fin 2) * 1 + 1 * 0 = 0; omega
    | ⟨1, _⟩ => show win0_2.index t (1 : Fin 2) * 32 + 1 * o.val = o.val; omega
  rw [hemb, linear1_apply]
  refine (pay_apply _ _ _ q o).trans ?_
  rw [h2]
  exact congrArg (· + V c main_v8 (ix2 (0 : Fin 1) o)) (Finset.sum_congr rfl fun c' _ => by rw [h0 c', h1 c'])

/-- An index of the result array is in block t iff its row is one of the block's 5000 rows. -/
theorem mem_blk (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v9).slice (win0_3.rect t)).set ↔ _
  rw [View.set_slice_whole, Rect.mem_set_unit]
  exact Iff.rfl

/-- Every index of the result array is in the block of its row's quotient by 5000. -/
theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 20 := N_0
  let t : Fin cfg0.N := ⟨(i 0).val / 5000, by rw [hN]; omega⟩
  obtain ⟨e0, e1, e2, e3, e4, e5, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

/-- After the last block the result array is the whole-array linear stage of the arrays the stage was entered with. -/
theorem final (c : Dev nD) : (dat0 V c).arrAt 3 cfg0.N = linear1 (V c main_arg0) (V c main_arg2) (V c main_v8) :=
  (dat0 V c).arrAt_eq_of_cover 3 _ (fun t _ => flushed_eq V c t) cover

end Cert.KernelIdeal.FirstLinear

end
-- ==== Proof.SecondLinear.lean ====
/-
  The second layer's dense stage on the vector unit: the first layer's mean, its positive part, then H · W2 plus the
  bias row.

  The stage visits the 100000 nodes in 20 blocks of 5000 rows. At block t it reads rows 5000·t … 5000·t + 4999 of the
  first layer's summed messages and of the count column, the whole weight matrix and the whole bias row, and writes the
  same rows of the result: entry (q, o) of the block is the contraction over c of max (sum (q, c) / max (count q, 1), 0)
  with column o of the weights, plus the bias entry o. The narrowing of the operands before the product is the
  identity on extended reals. Every row lies in exactly one block, so after the last block the result array is the
  whole-array dense stage of the arrays the stage was entered with.
-/
import proofs.«123568_j71193377899389_2_alg».proof.Proof.Gen.KernelIdeal.Frame
import proofs.«123568_j71193377899389_2_alg».proof.Proof.MeanLayers
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.SecondLinear

open Cert.KernelIdeal Cert.KernelIdeal.Gen Cert.MeanLayers Cert.MeanLayers.Net

variable (V : (c : Dev nD) → (b : Ref sig .tc) → Buf (Elt Ideal) ((c : Thread nD τ).loc b))

theorem hz : (![0, 0] : Fin 2 → Nat) = fun _ => 0 := funext fun a => by fin_cases a <;> rfl

/-- The stored value at entry (q, o) of a block: the positive part of the row's mean entries contracted with the
    weights, plus the bias entry. -/
theorem pay_apply (x0 : FVec Ideal S5000x32 .f32) (x1 : FVec Ideal S5000x1 .f32) (x2 : FVec Ideal S32x32 .f32)
    (x3 : FVec Ideal S1x32 .f32) (q : Fin 5000) (o : Fin 32) :
    k1_pay1 (F := Ideal) x0 x1 x2 x3 (ix2 q o)
      = (∑ c : Fin 32, posEntry (meanEntry (x0 (ix2 q c)) (x1 (ix2 q (0 : Fin 1)))) * x2 (ix2 c o)) + x3 (ix2 (0 : Fin 1) o) := by
  unfold k1_pay1
  rw [shapeCast_self, shapeCast_self, shapeCast_self]
  refine (blockLinear_apply dot_S5000x32_S32x32_S5000x32_1_0_0_1_n_n.wf _ (truncf .bf16 x2 bitsLt_bf16_f32) x3
    broadcasts_S1x32_S5000x32 q o).trans ?_
  refine congrArg (· + x3 (ix2 (0 : Fin 1) o)) (Finset.sum_congr rfl fun c _ => ?_)
  refine congrArg (· * x2 (ix2 c o)) ?_
  show max (divf x0 (broadcastTo S5000x32 (maximumf x1 (broadcast S5000x1 (Scalar.ofBits (F := Ideal) .f32 oneWord)))
    broadcasts_S5000x1_S5000x32) (ix2 q c)) (Ideal.ofBits .f32 0x00000000#32) = _
  rw [blockMean_apply x0 x1 broadcasts_S5000x1_S5000x32 q c]
  rfl

/-- Block t of the sums, of the counts and of the result starts at row 5000·t; the weights and the bias row are read
    whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What block t writes back is block t of the whole-array dense stage of the arrays the stage was entered with. -/
theorem flushed_eq (c : Dev nD) (t : Fin cfg1.N) :
    (dat1 V c).flushed 4 t
      = ((cfg1.win 4).blk t).view.read (Elt Ideal) (linear2 (V c main_v19) (V c main_v7) (V c main_arg4) (V c main_v20)) := by
  show (cfg1.win 4).cut (grid1.coords t) ((dat1 V c).after 4 t) = _
  rw [after1_4]
  unfold out1_4
  rw [View.canon_unit_zero hz]
  simp only [View.ld_unit_zero (S := S5000x32) hz, View.ld_unit_zero (S := S5000x1) hz, View.ld_unit_zero (S := S32x32) hz,
    View.ld_unit_zero (S := S1x32) hz]
  obtain ⟨e0, e1, e2, e3, e4, e5, e6, e7, e8, e9⟩ := idx_facts t
  have hN : t.val < 20 := by have := t.isLt; have h20 : cfg1.N = 20 := N_1; omega
  funext j
  obtain ⟨q, o, rfl⟩ : ∃ (q : Fin 5000) (o : Fin 32), j = ix2 q o := ⟨j 0, j 1, eq_ix2 j⟩
  have hrow : 5000 * t.val + q.val < 100000 := by have := q.isLt; omega
  show k1_pay1 (F := Ideal) (iblk1 V c 0 t) (iblk1 V c 1 t) (iblk1 V c 2 t) (iblk1 V c 3 t) (ix2 q o)
    = linear2 (V c main_v19) (V c main_v7) (V c main_arg4) (V c main_v20) (((cfg1.win 4).blk t).view.emb (ix2 q o))
  have hemb : ((cfg1.win 4).blk t).view.emb (ix2 q o) = ix2 (⟨5000 * t.val + q.val, hrow⟩ : Fin 100000) o := by
    funext a; apply Fin.ext
    match a with
    | ⟨0, _⟩ => show win1_4.index t (0 : Fin 2) * 5000 + 1 * q.val = 5000 * t.val + q.val; omega
    | ⟨1, _⟩ => show win1_4.index t (1 : Fin 2) * 32 + 1 * o.val = o.val; omega
  have h0 : ∀ c' : Fin 32, iblk1 V c 0 t (ix2 q c') = V c main_v19 (ix2 (⟨5000 * t.val + q.val, hrow⟩ : Fin 100000) c') := by
    intro c'
    show V c main_v19 (((cfg1.win 0).blk t).view.emb (ix2 q c')) = _
    refine congrArg (V c main_v19) (funext fun a => Fin.ext ?_)
    match a with
    | ⟨0, _⟩ => show win1_0.index t (0 : Fin 2) * 5000 + 1 * q.val = 5000 * t.val + q.val; omega
    | ⟨1, _⟩ => show win1_0.index t (1 : Fin 2) * 32 + 1 * c'.val = c'.val; omega
  have h1 : iblk1 V c 1 t (ix2 q (0 : Fin 1)) = V c main_v7 (ix2 (⟨5000 * t.val + q.val, hrow⟩ : Fin 100000) (0 : Fin 1)) := by
    show V c main_v7 (((cfg1.win 1).blk t).view.emb (ix2 q (0 : Fin 1))) = _
    refine congrArg (V c main_v7) (funext fun a => Fin.ext ?_)
    match a with
    | ⟨0, _⟩ => show win1_1.index t (0 : Fin 2) * 5000 + 1 * q.val = 5000 * t.val + q.val; omega
    | ⟨1, _⟩ => show win1_1.index t (1 : Fin 2) * 1 + 1 * 0 = 0; omega
  have h2 : ∀ c' : Fin 32, iblk1 V c 2 t (ix2 c' o) = V c main_arg4 (ix2 c' o) := by
    intro c'
    show V c main_arg4 (((cfg1.win 2).blk t).view.emb (ix2 c' o)) = _
    refine congrArg (V c main_arg4) (funext fun a => Fin.ext ?_)
    match a with
    | ⟨0, _⟩ => show win1_2.index t (0 : Fin 2) * 32 + 1 * c'.val = c'.val; omega
    | ⟨1, _⟩ => show win1_2.index t (1 : Fin 2) * 32 + 1 * o.val = o.val; omega
  have h3 : iblk1 V c 3 t (ix2 (0 : Fin 1) o) = V c main_v20 (ix2 (0 : Fin 1) o) := by
    show V c main_v20 (((cfg1.win 3).blk t).view.emb (ix2 (0 : Fin 1) o)) = _
    refine congrArg (V c main_v20) (funext fun a => Fin.ext ?_)
    match a with
    | ⟨0, _⟩ => show win1_3.index t (0 : Fin 2) * 1 + 1 * 0 = 0; omega
    | ⟨1, _⟩ => show win1_3.index t (1 : Fin 2) * 32 + 1 * o.val = o.val; omega
  rw [hemb, linear2_apply]
  refine (pay_apply _ _ _ _ q o).trans ?_
  rw [h3, h1]
  exact congrArg (· + V c main_v20 (ix2 (0 : Fin 1) o)) (Finset.sum_congr rfl fun c' _ => by rw [h0 c', h2 c'])

/-- An index of the result array is in block t iff its row is one of the block's 5000 rows. -/
theorem mem_blk (t : Fin cfg1.N) (i : S100000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v21).slice (win1_4.rect t)).set ↔ _
  rw [View.set_slice_whole, Rect.mem_set_unit]
  exact Iff.rfl

/-- Every index of the result array is in the block of its row's quotient by 5000. -/
theorem cover (i : S100000x32.Idx) : ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨e0, e1, e2, e3, e4, e5, e6, e7, e8, e9⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

/-- After the last block the result array is the whole-array dense stage of the arrays the stage was entered with. -/
theorem final (c : Dev nD) :
    (dat1 V c).arrAt 4 cfg1.N = linear2 (V c main_v19) (V c main_v7) (V c main_arg4) (V c main_v20) :=
  (dat1 V c).arrAt_eq_of_cover 4 _ (fun t _ => flushed_eq V c t) cover

end Cert.KernelIdeal.SecondLinear

end
-- ==== Proof.FinalMean.lean ====
/-
  The last stage on the vector unit: each node's summed messages over its floored message count.

  The stage visits the 100000 nodes in 20 blocks of 5000 rows. At block t it reads rows 5000·t … 5000·t + 4999 of the
  summed messages and of the count column, and writes the same rows of the result: entry (q, o) of the block is
  the sum's entry over max (count, 1) of row 5000·t + q. Every row lies in exactly one block, so after the last
  block the result array is the whole-array mean of the two arrays the stage was entered with.
-/
import proofs.«123568_j71193377899389_2_alg».proof.Proof.Gen.KernelIdeal.Frame
import proofs.«123568_j71193377899389_2_alg».proof.Proof.MeanLayers
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.FinalMean

open Cert.KernelIdeal Cert.KernelIdeal.Gen Cert.MeanLayers Cert.MeanLayers.Net

variable (V : (c : Dev nD) → (b : Ref sig .tc) → Buf (Elt Ideal) ((c : Thread nD τ).loc b))

theorem hz : (![0, 0] : Fin 2 → Nat) = fun _ => 0 := funext fun a => by fin_cases a <;> rfl

/-- The stored value at entry (q, o) of a block: the block's mean entry. -/
theorem pay_apply (x0 : FVec Ideal S5000x32 .f32) (x1 : FVec Ideal S5000x1 .f32) (q : Fin 5000) (o : Fin 32) :
    k2_pay1 (F := Ideal) x0 x1 (ix2 q o) = meanEntry (x0 (ix2 q o)) (x1 (ix2 q (0 : Fin 1))) := by
  unfold k2_pay1
  rw [shapeCast_self, shapeCast_self]
  exact blockMean_apply x0 x1 broadcasts_S5000x1_S5000x32 q o

/-- Block t of every window starts at row 5000·t, column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What block t writes back is block t of the whole-array mean of the arrays the stage was entered with. -/
theorem flushed_eq (c : Dev nD) (t : Fin cfg2.N) :
    (dat2 V c).flushed 2 t = ((cfg2.win 2).blk t).view.read (Elt Ideal) (nodeMean (V c main_v31) (V c main_v7)) := by
  show (cfg2.win 2).cut (grid2.coords t) ((dat2 V c).after 2 t) = _
  rw [after2_2]
  unfold out2_2
  rw [View.canon_unit_zero hz]
  simp only [View.ld_unit_zero (S := S5000x32) hz, View.ld_unit_zero (S := S5000x1) hz]
  obtain ⟨e0, e1, e2, e3, e4, e5⟩ := idx_facts t
  have hN : t.val < 20 := by have := t.isLt; have h20 : cfg2.N = 20 := N_2; omega
  funext j
  obtain ⟨q, o, rfl⟩ : ∃ (q : Fin 5000) (o : Fin 32), j = ix2 q o := ⟨j 0, j 1, eq_ix2 j⟩
  have hrow : 5000 * t.val + q.val < 100000 := by have := q.isLt; omega
  show k2_pay1 (F := Ideal) (iblk2 V c 0 t) (iblk2 V c 1 t) (ix2 q o)
    = nodeMean (V c main_v31) (V c main_v7) (((cfg2.win 2).blk t).view.emb (ix2 q o))
  have hemb : ((cfg2.win 2).blk t).view.emb (ix2 q o) = ix2 (⟨5000 * t.val + q.val, hrow⟩ : Fin 100000) o := by
    funext a; apply Fin.ext
    match a with
    | ⟨0, _⟩ => show win2_2.index t (0 : Fin 2) * 5000 + 1 * q.val = 5000 * t.val + q.val; omega
    | ⟨1, _⟩ => show win2_2.index t (1 : Fin 2) * 32 + 1 * o.val = o.val; omega
  have h0 : iblk2 V c 0 t (ix2 q o) = V c main_v31 (ix2 (⟨5000 * t.val + q.val, hrow⟩ : Fin 100000) o) := by
    show V c main_v31 (((cfg2.win 0).blk t).view.emb (ix2 q o)) = _
    refine congrArg (V c main_v31) (funext fun a => Fin.ext ?_)
    match a with
    | ⟨0, _⟩ => show win2_0.index t (0 : Fin 2) * 5000 + 1 * q.val = 5000 * t.val + q.val; omega
    | ⟨1, _⟩ => show win2_0.index t (1 : Fin 2) * 32 + 1 * o.val = o.val; omega
  have h1 : iblk2 V c 1 t (ix2 q (0 : Fin 1)) = V c main_v7 (ix2 (⟨5000 * t.val + q.val, hrow⟩ : Fin 100000) (0 : Fin 1)) := by
    show V c main_v7 (((cfg2.win 1).blk t).view.emb (ix2 q (0 : Fin 1))) = _
    refine congrArg (V c main_v7) (funext fun a => Fin.ext ?_)
    match a with
    | ⟨0, _⟩ => show win2_1.index t (0 : Fin 2) * 5000 + 1 * q.val = 5000 * t.val + q.val; omega
    | ⟨1, _⟩ => show win2_1.index t (1 : Fin 2) * 1 + 1 * 0 = 0; omega
  rw [hemb, nodeMean_apply]
  refine (pay_apply _ _ q o).trans ?_
  rw [h0, h1]

/-- An index of the result array is in block t iff its row is one of the block's 5000 rows. -/
theorem mem_blk (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v32).slice (win2_2.rect t)).set ↔ _
  rw [View.set_slice_whole, Rect.mem_set_unit]
  exact Iff.rfl

/-- Every index of the result array is in the block of its row's quotient by 5000. -/
theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := N_2
  let t : Fin cfg2.N := ⟨(i 0).val / 5000, by rw [hN]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- After the last block the result array is the whole-array mean of the two arrays the stage was entered with. -/
theorem final (c : Dev nD) : (dat2 V c).arrAt 2 cfg2.N = nodeMean (V c main_v31) (V c main_v7) :=
  (dat2 V c).arrAt_eq_of_cover 2 _ (fun t _ => flushed_eq V c t) cover

end Cert.KernelIdeal.FinalMean

end
-- ==== Proof.HostGlue.lean ====
/-
  The host operations between the stages, as functions of the edge array, and the whole network as one function of
  the arguments.

  The edge array's first row holds each edge's source node and its second row its target node. A layer sends every
  source node's row along its edges (a gather, a negative source index first wrapped by the node count) and adds what
  arrives at each target node (an accumulating scatter from zero); the number of arrivals is the same scatter of ones.
  These are carried here as named functions and never opened: both programs apply them, to the same operands.
-/
import proofs.«123568_j71193377899389_2_alg».proof.Proof.Gen.KernelIdeal
import proofs.«123568_j71193377899389_2_alg».proof.Proof.MeanLayers

noncomputable section

namespace Cert.KernelIdeal.Glue

open Cert.KernelIdeal Cert.KernelIdeal.Gen Idealize.ShloMosaic Cert.MeanLayers Cert.MeanLayers.Net

/-- The edges' source nodes: row 0 of the edge array. -/
def srcRow (E : IVec S2x1600000 32) : IVec S1600000 32 :=
  shapeCast S1600000 (extractStridedSlice S1x1600000 ![0, 0] E slices_S2x1600000_S1x1600000_0_0) shapeCasts_S1x1600000_S1600000

/-- The edges' target nodes: row 1 of the edge array. -/
def dstRow (E : IVec S2x1600000 32) : IVec S1600000 32 :=
  shapeCast S1600000 (extractStridedSlice S1x1600000 ![1, 0] E slices_S2x1600000_S1x1600000_1_0) shapeCasts_S1x1600000_S1600000

/-- How many edges arrive at each node: ones added up at the target nodes. -/
def arrivals (dst : IVec S1600000 32) : FVec Ideal S100000x1 .f32 :=
  Host.scatterAdd (F := Ideal) scatter_S100000x1_S1600000x1_S1600000x1_1_0_0_1
    (broadcastInDim S100000x1 ![] bcast_S_S100000x1 (constant (F := Ideal) S_ .f32 0x00000000#32))
    (broadcastInDim S1600000x1 ![0] bcast_S1600000_S1600000x1_0 dst)
    (broadcastInDim S1600000x1 ![] bcast_S_S1600000x1 (constant (F := Ideal) S_ .f32 0x3F800000#32))

/-- One round of messages: every source node's row of T sent along its edges and added up at the target nodes. -/
def sendSum (src dst : IVec S1600000 32) (T : FVec Ideal S100000x32 .f32) : FVec Ideal S100000x32 .f32 :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (Host.gather gather_S100000x32_S1600000x1_S1600000x32_1_0_n_n_0_1_132 T
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The network with its two bias rows given as rows: two rounds of linear stage, messages and mean, the first followed
    by the positive part. -/
def networkRows (X : FVec Ideal S100000x128 .f32) (E : IVec S2x1600000 32) (W1 : FVec Ideal S128x32 .f32)
    (B1 : FVec Ideal S1x32 .f32) (W2 : FVec Ideal S32x32 .f32) (B2 : FVec Ideal S1x32 .f32) : FVec Ideal S100000x32 .f32 :=
  nodeMean
    (sendSum (srcRow E) (dstRow E)
      (linear2 (sendSum (srcRow E) (dstRow E) (linear1 X W1 B1)) (arrivals (dstRow E)) W2 B2))
    (arrivals (dstRow E))

/-- The network of the arguments, each bias vector laid out as a row by a reshape. -/
def network (X : FVec Ideal S100000x128 .f32) (E : IVec S2x1600000 32) (W1 : FVec Ideal S128x32 .f32)
    (b1 : FVec Ideal S32 .f32) (W2 : FVec Ideal S32x32 .f32) (b2 : FVec Ideal S32 .f32) : FVec Ideal S100000x32 .f32 :=
  networkRows X E W1 (shapeCast S1x32 b1 shapeCasts_S32_S1x32) W2 (shapeCast S1x32 b2 shapeCasts_S32_S1x32)

/-- A bias vector reshaped to a row is the vector broadcast into the row's second axis, so the network may take its
    bias rows either way. -/
theorem network_rows (X : FVec Ideal S100000x128 .f32) (E : IVec S2x1600000 32) (W1 : FVec Ideal S128x32 .f32)
    (b1 : FVec Ideal S32 .f32) (W2 : FVec Ideal S32x32 .f32) (b2 : FVec Ideal S32 .f32)
    (h : S32.BroadcastsInDim S1x32 (![1] : Fin 1 → Fin S1x32.rank)) :
    network X E W1 b1 W2 b2
      = networkRows X E W1 (broadcastInDim S1x32 ![1] h b1) W2 (broadcastInDim S1x32 ![1] h b2) := by
  unfold network
  rw [Idealize.ShloMosaic.RowLayout.rowLayout b1 shapeCasts_S32_S1x32 h,
    Idealize.ShloMosaic.RowLayout.rowLayout b2 shapeCasts_S32_S1x32 h]

end Cert.KernelIdeal.Glue

end
-- ==== Proof.KernelValue.lean ====
/-
  The result of the three-stage program as one function of its arguments.

  The buffer contents at each boundary of the program — after a host stretch, after a stage — are followed from the
  launch memory to the result. A host stretch leaves at each buffer it writes its operation's value of the operands'
  contents and leaves every other buffer alone; a stage leaves at its result array the whole-array function of the
  arrays it was entered with and leaves its input arrays and every other buffer alone. Composed, the result buffer ends
  holding the network of the argument arrays: linear stage, messages, mean and positive part, linear stage, messages,
  mean.
-/
import proofs.«123568_j71193377899389_2_alg».proof.Proof.Gen.KernelIdeal.Frame
import proofs.«123568_j71193377899389_2_alg».proof.Proof.FirstLinear
import proofs.«123568_j71193377899389_2_alg».proof.Proof.SecondLinear
import proofs.«123568_j71193377899389_2_alg».proof.Proof.FinalMean
import proofs.«123568_j71193377899389_2_alg».proof.Proof.HostGlue
import Idealize.ShloMosaic.Lib.StableHlo.Run

noncomputable section

namespace Cert.KernelIdeal.Boundaries

open Cert.KernelIdeal Cert.KernelIdeal.Gen Cert.KernelIdeal.Glue Cert.MeanLayers.Net
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## After the first host stretch: the edge rows, the arrival counts, the first bias as a row -/

theorem first_src (c : Dev nD) : W1 m ρ c (Proc.devRef .tc main_v1) = srcRow (m ((c : Thread nD τ).loc main_arg1)) := by
  show StableHlo.after hostOps0 (W0 m ρ c) (Proc.devRef .tc main_v1) = _
  dsimp only [hostOps0]
  after_results <;> rfl

theorem first_dst (c : Dev nD) : W1 m ρ c (Proc.devRef .tc main_v3) = dstRow (m ((c : Thread nD τ).loc main_arg1)) := by
  show StableHlo.after hostOps0 (W0 m ρ c) (Proc.devRef .tc main_v3) = _
  dsimp only [hostOps0]
  after_results <;> rfl

theorem first_cnt (c : Dev nD) :
    W1 m ρ c (Proc.devRef .tc main_v7) = arrivals (dstRow (m ((c : Thread nD τ).loc main_arg1))) := by
  show StableHlo.after hostOps0 (W0 m ρ c) (Proc.devRef .tc main_v7) = _
  dsimp only [hostOps0]
  after_results <;> rfl

theorem first_bias (c : Dev nD) :
    W1 m ρ c (Proc.devRef .tc main_v8) = shapeCast S1x32 (m ((c : Thread nD τ).loc main_arg3)) shapeCasts_S32_S1x32 := by
  show StableHlo.after hostOps0 (W0 m ρ c) (Proc.devRef .tc main_v8) = _
  dsimp only [hostOps0]
  after_results <;> rfl

theorem first_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results <;> rfl

theorem first_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results <;> rfl

theorem first_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results <;> rfl

theorem first_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results <;> rfl

/-! ## After the first stage: its result is the first linear stage -/

theorem stage1_out (c : Dev nD) :
    W2 m ρ c (Proc.devRef .tc main_v9)
      = linear1 (m ((c : Thread nD τ).loc main_arg0)) (m ((c : Thread nD τ).loc main_arg2))
          (shapeCast S1x32 (m ((c : Thread nD τ).loc main_arg3)) shapeCasts_S32_S1x32) := by
  refine ((W2_arr m ρ c 3).trans (FirstLinear.final (V1 m ρ) c)).trans ?_
  show linear1 (W1 m ρ c (Proc.devRef .tc main_arg0)) (W1 m ρ c (Proc.devRef .tc main_arg2))
    (W1 m ρ c (Proc.devRef .tc main_v8)) = _
  rw [first_arg0, first_arg2, first_bias]

/-! ## After the second host stretch: the first round of messages, the second bias as a row -/

theorem second_agg (c : Dev nD) :
    W3 m ρ c (Proc.devRef .tc main_v19)
      = sendSum (W2 m ρ c (Proc.devRef .tc main_v1)) (W2 m ρ c (Proc.devRef .tc main_v3)) (W2 m ρ c (Proc.devRef .tc main_v9)) := by
  show StableHlo.after hostOps1 (W2 m ρ c) (Proc.devRef .tc main_v19) = _
  dsimp only [hostOps1]
  after_results <;> rfl

theorem second_bias (c : Dev nD) :
    W3 m ρ c (Proc.devRef .tc main_v20) = shapeCast S1x32 (W2 m ρ c (Proc.devRef .tc main_arg5)) shapeCasts_S32_S1x32 := by
  show StableHlo.after hostOps1 (W2 m ρ c) (Proc.devRef .tc main_v20) = _
  dsimp only [hostOps1]
  after_results <;> rfl

theorem second_keeps (c : Dev nD) :
    W3 m ρ c (Proc.devRef .tc main_v1) = W2 m ρ c (Proc.devRef .tc main_v1)
    ∧ W3 m ρ c (Proc.devRef .tc main_v3) = W2 m ρ c (Proc.devRef .tc main_v3)
    ∧ W3 m ρ c (Proc.devRef .tc main_v7) = W2 m ρ c (Proc.devRef .tc main_v7)
    ∧ W3 m ρ c (Proc.devRef .tc main_arg4) = W2 m ρ c (Proc.devRef .tc main_arg4) := by
  refine ⟨?_, ?_, ?_, ?_⟩
  · show StableHlo.after hostOps1 (W2 m ρ c) (Proc.devRef .tc main_v1) = _
    dsimp only [hostOps1]
    after_results <;> rfl
  · show StableHlo.after hostOps1 (W2 m ρ c) (Proc.devRef .tc main_v3) = _
    dsimp only [hostOps1]
    after_results <;> rfl
  · show StableHlo.after hostOps1 (W2 m ρ c) (Proc.devRef .tc main_v7) = _
    dsimp only [hostOps1]
    after_results <;> rfl
  · show StableHlo.after hostOps1 (W2 m ρ c) (Proc.devRef .tc main_arg4) = _
    dsimp only [hostOps1]
    after_results <;> rfl

/-! ## After the second stage: its result is the second dense stage; its count input is kept -/

theorem stage2_out (c : Dev nD) :
    W4 m ρ c (Proc.devRef .tc main_v21)
      = linear2 (W3 m ρ c (Proc.devRef .tc main_v19)) (W3 m ρ c (Proc.devRef .tc main_v7))
          (W3 m ρ c (Proc.devRef .tc main_arg4)) (W3 m ρ c (Proc.devRef .tc main_v20)) :=
  (W4_arr m ρ c 4).trans (SecondLinear.final (V3 m ρ) c)

theorem stage2_cnt (c : Dev nD) : W4 m ρ c (Proc.devRef .tc main_v7) = W3 m ρ c (Proc.devRef .tc main_v7) :=
  (W4_arr m ρ c 1).trans (((dat1 (V3 m ρ) c).arrAt_in 1 rfl _).trans (A_eq1 (V3 m ρ) c 1))

/-! ## After the third host stretch: the second round of messages -/

theorem third_agg (c : Dev nD) :
    W5 m ρ c (Proc.devRef .tc main_v31)
      = sendSum (W4 m ρ c (Proc.devRef .tc main_v1)) (W4 m ρ c (Proc.devRef .tc main_v3)) (W4 m ρ c (Proc.devRef .tc main_v21)) := by
  show StableHlo.after hostOps2 (W4 m ρ c) (Proc.devRef .tc main_v31) = _
  dsimp only [hostOps2]
  after_results <;> rfl

theorem third_cnt (c : Dev nD) : W5 m ρ c (Proc.devRef .tc main_v7) = W4 m ρ c (Proc.devRef .tc main_v7) := by
  show StableHlo.after hostOps2 (W4 m ρ c) (Proc.devRef .tc main_v7) = _
  dsimp only [hostOps2]
  after_results <;> rfl

/-! ## The result -/

/-- The result buffer ends holding the network of the argument arrays. -/
theorem result_eq (c : Dev nD) :
    W6 m ρ c (Proc.devRef .tc main_v32)
      = network (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  obtain ⟨k1, k3, k7, k4⟩ := second_keeps m ρ c
  have src2 : W2 m ρ c (Proc.devRef .tc main_v1) = srcRow (m ((c : Thread nD τ).loc main_arg1)) :=
    (W2_of_ne m ρ c main_v1 (by decide)).trans (first_src m ρ c)
  have dst2 : W2 m ρ c (Proc.devRef .tc main_v3) = dstRow (m ((c : Thread nD τ).loc main_arg1)) :=
    (W2_of_ne m ρ c main_v3 (by decide)).trans (first_dst m ρ c)
  have cnt2 : W2 m ρ c (Proc.devRef .tc main_v7) = arrivals (dstRow (m ((c : Thread nD τ).loc main_arg1))) :=
    (W2_of_ne m ρ c main_v7 (by decide)).trans (first_cnt m ρ c)
  have w2 : W2 m ρ c (Proc.devRef .tc main_arg4) = m ((c : Thread nD τ).loc main_arg4) :=
    (W2_of_ne m ρ c main_arg4 (by decide)).trans (first_arg4 m ρ c)
  have b2 : W2 m ρ c (Proc.devRef .tc main_arg5) = m ((c : Thread nD τ).loc main_arg5) :=
    (W2_of_ne m ρ c main_arg5 (by decide)).trans (first_arg5 m ρ c)
  have src4 : W4 m ρ c (Proc.devRef .tc main_v1) = srcRow (m ((c : Thread nD τ).loc main_arg1)) :=
    (W4_of_ne m ρ c main_v1 (by decide)).trans (k1.trans src2)
  have dst4 : W4 m ρ c (Proc.devRef .tc main_v3) = dstRow (m ((c : Thread nD τ).loc main_arg1)) :=
    (W4_of_ne m ρ c main_v3 (by decide)).trans (k3.trans dst2)
  refine ((W6_arr m ρ c 2).trans (FinalMean.final (V5 m ρ) c)).trans ?_
  show nodeMean (W5 m ρ c (Proc.devRef .tc main_v31)) (W5 m ρ c (Proc.devRef .tc main_v7)) = _
  rw [third_agg, third_cnt, stage2_cnt, stage2_out, src4, dst4, second_agg, second_bias, k7, k4, src2, dst2, cnt2, w2, b2,
    stage1_out]
  rfl

end Cert.KernelIdeal.Boundaries

end
-- ==== Proof.lean ====
/-
  A two-layer mean-aggregation network on a graph of 100000 nodes and 1600000 edges, as three stages on the vector unit
  among host gathers and scatters, against the same network written with whole-array operations.

  Each layer is a linear map with a bias on every node's row, the rows sent along the edges and added up at their
  target nodes, and the sums divided by the number of arrivals floored at one; the first layer's mean goes through a
  maximum with zero. The staged program computes the first linear map, then the first mean fused with the maximum and
  the second linear map, then the second mean, each over 20 blocks of 5000 nodes; the sending and adding are host
  operations in both programs. Over the extended reals the two programs are the same composition of functions: a
  block of a stage holds the rows of the whole-array function, narrowing to a shorter format is the identity, a product
  into a zero accumulator is the host's product, and a bias vector reshaped to a row is the vector broadcast into a row.
  No law that needs a finite entry is used, so the precondition is never opened.
-/
import proofs.«123568_j71193377899389_2_alg».proof.Defs
import proofs.«123568_j71193377899389_2_alg».proof.Proof.Gen.Kernel
import proofs.«123568_j71193377899389_2_alg».proof.Proof.Gen.Kernel.Frame
import proofs.«123568_j71193377899389_2_alg».proof.Proof.Gen.KernelIdeal
import proofs.«123568_j71193377899389_2_alg».proof.Proof.Gen.KernelIdeal.Frame
import proofs.«123568_j71193377899389_2_alg».proof.Proof.Gen.ReferenceIdeal
import proofs.«123568_j71193377899389_2_alg».proof.Proof.Gen.ReferenceIdeal.Run
import proofs.«123568_j71193377899389_2_alg».proof.Proof.Gen.Pre_finite_inputs
import proofs.«123568_j71193377899389_2_alg».proof.Proof.KernelRun
import proofs.«123568_j71193377899389_2_alg».proof.Proof.KernelValue
import Idealize.ShloMosaic.Adequacy
import Idealize.ShloMosaic.Init

noncomputable section

namespace Cert.Proof

open Idealize.ShloMosaic Idealize.ShloMosaic.TcCoe Idealize.SL.Sem

/-- The whole-array program's result is the network of its arguments, the bias vectors broadcast into rows: its
    operations are the network's, one for one. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v48 m' c
      = Cert.KernelIdeal.Glue.networkRows
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (broadcastInDim Cert.KernelIdeal.S1x32 ![1] Cert.ReferenceIdeal.Gen.bcast_S32_S1x32_1
            (m' ((c.tc : Thread Cert.ReferenceIdeal.nD Cert.ReferenceIdeal.τ).loc Cert.ReferenceIdeal.main_arg3)))
          (m' ((c.tc : Thread Cert.ReferenceIdeal.nD Cert.ReferenceIdeal.τ).loc Cert.ReferenceIdeal.main_arg4))
          (broadcastInDim Cert.KernelIdeal.S1x32 ![1] Cert.ReferenceIdeal.Gen.bcast_S32_S1x32_1
            (m' ((c.tc : Thread Cert.ReferenceIdeal.nD Cert.ReferenceIdeal.τ).loc Cert.ReferenceIdeal.main_arg5))) := by
  unfold Cert.ReferenceIdeal.Value.res_main_v48 Cert.KernelIdeal.Glue.networkRows
  rfl

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the network of the arguments in their
    result buffers. -/
theorem algebraic : Cert.algebraic_KernelIdeal_ReferenceIdeal := by
  intro m ρ m' ρ' _ hagree
  refine ⟨fun c => Cert.KernelIdeal.Glue.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Boundaries.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5⟩ := hagree c
    show Cert.ReferenceIdeal.Value.res_main_v48 m' c = Cert.KernelIdeal.Glue.network _ _ _ _ _ _
    rw [← a0, ← a1, ← a2, ← a3, ← a4, ← a5]
    exact (reference_result m' c).trans
      (Cert.KernelIdeal.Glue.network_rows _ _ _ _ _ _ Cert.ReferenceIdeal.Gen.bcast_S32_S1x32_1).symm

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
